-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 107
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S_, .f32⟩
  | .hbm, ⟨90, _⟩ => ⟨S1024x128, .f32⟩
  | .hbm, ⟨91, _⟩ => ⟨S100000x1, .i32⟩
  | .hbm, ⟨92, _⟩ => ⟨S1024x128, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S1024, .f32⟩
  | .hbm, ⟨97, _⟩ => ⟨S100000x1, .i32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S1024x1, .f32⟩
  | .hbm, ⟨103, _⟩ => ⟨S1024x128, .f32⟩
  | .hbm, ⟨104, _⟩ => ⟨S1024x128, .f32⟩
  | .hbm, ⟨105, _⟩ => ⟨S1x2, .f32⟩
  | .hbm, ⟨106, _⟩ => ⟨S1024x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1024x128, .f32⟩
  | .local _ .vmem, ⟨21, _⟩ => ⟨S128x2, .f32⟩
  | .local _ .vmem, ⟨22, _⟩ => ⟨S1x2, .f32⟩
  | .local _ .vmem, ⟨23, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S2_S1x2 : S2.ShapeCasts S1x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x2.size a ≤ S1024x2.size a
  hwx4_3 : ∀ i : grid4.Coords, EltTy.bits .f32 = 32 ∨ (Rect.block (s := S1024x2) S1024x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1024x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S1024x128, .f32⟩
  | .hbm, ⟨99, _⟩ => ⟨S100000x1, .i32⟩
  | .hbm, ⟨100, _⟩ => ⟨S1024x128, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S1024, .f32⟩
  | .hbm, ⟨105, _⟩ => ⟨S100000x1, .i32⟩
  | .hbm, ⟨106, _⟩ => ⟨S1024, .f32⟩
  | .hbm, ⟨107, _⟩ => ⟨S_, .f32⟩
  | .hbm, ⟨108, _⟩ => ⟨S1024, .f32⟩
  | .hbm, ⟨109, _⟩ => ⟨S1024, .f32⟩
  | .hbm, ⟨110, _⟩ => ⟨S1024x1, .f32⟩
  | .hbm, ⟨111, _⟩ => ⟨S1024x128, .f32⟩
  | .hbm, ⟨112, _⟩ => ⟨S1024x128, .f32⟩
  | .hbm, ⟨113, _⟩ => ⟨S1024x2, .f32⟩
  | .hbm, ⟨114, _⟩ => ⟨S1x2, .f32⟩
  | .hbm, ⟨115, _⟩ => ⟨S1024x2, .f32⟩
  | .hbm, ⟨116, _⟩ => ⟨S1024x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x2_S1024x2_1_0_0_1_n_n_wf : DotDims.WF S1024x128 S128x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.KernelRun.lean ====
/-
  The kernel program's run with its RESULT kept: every weakly fair execution of @main — five pipelined regions among
  stretches of host operations — terminates, nothing faulting, with the result buffer at what the fold of the program's
  segments leaves there (`W11`: the last region's arrays at what its write-backs leave, every other buffer as the last
  stretch of host operations left it), and the nine argument arrays as launched.

  The segments, their chaining and the launch are the generated frame's; only the last step differs: of the final
  memory, which holds every unscoped buffer at `W11`, the result buffer is read beside the arguments.
-/
import proofs.«122321_j38637525795005_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_result : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Hand

end
-- ==== Proof.Payloads.lean ====
/-
  The three kernel bodies of this program, each read at ONE index of the block it stores, at the ideal values
  (extended reals, exact operations, format changes the identity).

  * the two linear layers' body: the block's row `p` against the weight's column `q`, `∑ k, x[p,k] · w[k,q]` — the
    matrix product into a zero accumulator is the plain sum over the one contracted axis;
  * the two activation bodies: `max (x[p,q] + b[0,q]) 0` — the bias row broadcast down the block's rows, then the
    maximum with zero;
  * the classifier's body: `(∑ k, x[p,k] · w[k,q]) + b[0,q]`.
-/
import proofs.«122321_j38637525795005_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## A block of 2000 rows against a 128 × 128 weight -/

/-- The dimension numbers of the linear layers' product: one contracted axis, of extent 128. -/
abbrev dLin := dot_S2000x128_S128x128_S2000x128_1_0_0_1_n_n

theorem dLin_lhs0 (i : S2000x128.Idx) (q : dLin.contr.Idx) : (dLin.lhsIdx i q 0).val = (i 0).val := by
  unfold DotDims.lhsIdx
  rw [dif_neg (show ¬(0 : Fin S2000x128.rank) ∈ dLin.lhsBatch by decide), dif_pos (show (0 : Fin S2000x128.rank) ∈ dLin.lhsNonContracting by decide)]
  rfl
theorem dLin_lhs1 (i : S2000x128.Idx) (q : dLin.contr.Idx) : (dLin.lhsIdx i q 1).val = (q ⟨0, by decide⟩).val :=
  dLin.lhsIdx_val_of_single rfl i q
theorem dLin_rhs0 (i : S2000x128.Idx) (q : dLin.contr.Idx) : (dLin.rhsIdx i q 0).val = (q ⟨0, by decide⟩).val :=
  dLin.rhsIdx_val_of_single rfl i q
theorem dLin_rhs1 (i : S2000x128.Idx) (q : dLin.contr.Idx) : (dLin.rhsIdx i q 1).val = (i 1).val := by
  unfold DotDims.rhsIdx
  rw [dif_neg (show ¬(1 : Fin S128x128.rank) ∈ dLin.rhsBatch by decide), dif_pos (show (1 : Fin S128x128.rank) ∈ dLin.rhsNonContracting by decide)]
  rfl

/-- The product into a zero accumulator, at row `p` and column `q`: the sum over the contracted axis. -/
theorem matmul_lin_apply (x : FVec Ideal S2000x128 .bf16) (w : FVec Ideal S128x128 .bf16) (p : Fin 2000) (q : Fin 128) :
    matmul dLin none x w (constant S2000x128 .f32 0x00000000#32) (ix2 p q) = ∑ k : Fin 128, x (ix2 p k) * w (ix2 k q) := by
  refine (Ideal.matmul_constant_zero_apply dLin none x w (ix2 p q)).trans ?_
  rw [← Equiv.sum_comp (contrEquiv1 dLin 128 rfl rfl).symm]
  refine Finset.sum_congr rfl fun k _ => ?_
  have hk := contrEquiv1_symm_val dLin 128 rfl rfl k
  have el : dLin.lhsIdx (ix2 p q) ((contrEquiv1 dLin 128 rfl rfl).symm k) = ix2 p k := funext fun a => Fin.ext (by
    match a with
    | ⟨0, _⟩ => exact dLin_lhs0 _ _
    | ⟨1, _⟩ => exact (dLin_lhs1 _ _).trans hk)
  have er : dLin.rhsIdx (ix2 p q) ((contrEquiv1 dLin 128 rfl rfl).symm k) = ix2 k q := funext fun a => Fin.ext (by
    match a with
    | ⟨0, _⟩ => exact (dLin_rhs0 _ _).trans hk
    | ⟨1, _⟩ => exact dLin_rhs1 _ _)
  rw [el, er]

/-- The first linear layer's body at `(p, q)`. -/
theorem lin1_pay (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  exact matmul_lin_apply _ _ p q

/-- The second linear layer's body at `(p, q)` (the same product after a cast of the block to its own shape). -/
theorem lin2_pay (x : Vec Ideal S2000x128 .f32) (w : Vec Ideal S128x128 .f32) (p : Fin 2000) (q : Fin 128) :
    k2_pay1 (F := Ideal) x w (ix2 p q) = ∑ k : Fin 128, x (ix2 p k) * w (ix2 k q) := by
  unfold k2_pay1
  rw [shapeCast_self]
  exact matmul_lin_apply _ _ p q

/-! ## Bias and maximum with zero -/

/-- The activation body at `(p, q)`: the block's entry plus the bias row's entry at `q`, then the maximum with zero. -/
theorem act_apply (x : FVec Ideal S2000x128 .f32) (b : FVec Ideal S1x128 .f32) (p : Fin 2000) (q : Fin 128) :
    maximumf (addf (shapeCast S2000x128 x shapeCasts_S2000x128_S2000x128)
        (broadcastTo S2000x128 (shapeCast S1x128 b shapeCasts_S1x128_S1x128) broadcasts_S1x128_S2000x128))
      (broadcast S2000x128 (Scalar.ofBits (F := Ideal) .f32 0x00000000#32)) (ix2 p q)
      = max (x (ix2 p q) + b (ix2 (0 : Fin 1) q)) (Ideal.ofBits .f32 0x00000000#32) := by
  rw [shapeCast_self, shapeCast_self]
  show max (x (ix2 p q) + broadcastTo S2000x128 b broadcasts_S1x128_S2000x128 (ix2 p q)) _ = _
  rw [broadcastTo_1b_ab_apply b broadcasts_S1x128_S2000x128 p q]
  rfl

theorem act1_pay (x : Vec Ideal S2000x128 .f32) (b : Vec Ideal S1x128 .f32) (p : Fin 2000) (q : Fin 128) :
    k1_pay1 (F := Ideal) x b (ix2 p q) = max (x (ix2 p q) + b (ix2 (0 : Fin 1) q)) (Ideal.ofBits .f32 0x00000000#32) := by
  unfold k1_pay1
  exact act_apply x b p q

theorem act2_pay (x : Vec Ideal S2000x128 .f32) (b : Vec Ideal S1x128 .f32) (p : Fin 2000) (q : Fin 128) :
    k3_pay1 (F := Ideal) x b (ix2 p q) = max (x (ix2 p q) + b (ix2 (0 : Fin 1) q)) (Ideal.ofBits .f32 0x00000000#32) := by
  unfold k3_pay1
  exact act_apply x b p q

/-! ## The classifier: 1024 pooled rows against a 128 × 2 weight, plus the bias row -/

abbrev dCls := dot_S1024x128_S128x2_S1024x2_1_0_0_1_n_n

theorem dCls_lhs0 (i : S1024x2.Idx) (q : dCls.contr.Idx) : (dCls.lhsIdx i q 0).val = (i 0).val := by
  unfold DotDims.lhsIdx
  rw [dif_neg (show ¬(0 : Fin S1024x128.rank) ∈ dCls.lhsBatch by decide), dif_pos (show (0 : Fin S1024x128.rank) ∈ dCls.lhsNonContracting by decide)]
  rfl
theorem dCls_lhs1 (i : S1024x2.Idx) (q : dCls.contr.Idx) : (dCls.lhsIdx i q 1).val = (q ⟨0, by decide⟩).val :=
  dCls.lhsIdx_val_of_single rfl i q
theorem dCls_rhs0 (i : S1024x2.Idx) (q : dCls.contr.Idx) : (dCls.rhsIdx i q 0).val = (q ⟨0, by decide⟩).val :=
  dCls.rhsIdx_val_of_single rfl i q
theorem dCls_rhs1 (i : S1024x2.Idx) (q : dCls.contr.Idx) : (dCls.rhsIdx i q 1).val = (i 1).val := by
  unfold DotDims.rhsIdx
  rw [dif_neg (show ¬(1 : Fin S128x2.rank) ∈ dCls.rhsBatch by decide), dif_pos (show (1 : Fin S128x2.rank) ∈ dCls.rhsNonContracting by decide)]
  rfl

theorem matmul_cls_apply (x : FVec Ideal S1024x128 .bf16) (w : FVec Ideal S128x2 .bf16) (p : Fin 1024) (q : Fin 2) :
    matmul dCls none x w (constant S1024x2 .f32 0x00000000#32) (ix2 p q) = ∑ k : Fin 128, x (ix2 p k) * w (ix2 k q) := by
  refine (Ideal.matmul_constant_zero_apply dCls none x w (ix2 p q)).trans ?_
  rw [← Equiv.sum_comp (contrEquiv1 dCls 128 rfl rfl).symm]
  refine Finset.sum_congr rfl fun k _ => ?_
  have hk := contrEquiv1_symm_val dCls 128 rfl rfl k
  have el : dCls.lhsIdx (ix2 p q) ((contrEquiv1 dCls 128 rfl rfl).symm k) = ix2 p k := funext fun a => Fin.ext (by
    match a with
    | ⟨0, _⟩ => exact dCls_lhs0 _ _
    | ⟨1, _⟩ => exact (dCls_lhs1 _ _).trans hk)
  have er : dCls.rhsIdx (ix2 p q) ((contrEquiv1 dCls 128 rfl rfl).symm k) = ix2 k q := funext fun a => Fin.ext (by
    match a with
    | ⟨0, _⟩ => exact (dCls_rhs0 _ _).trans hk
    | ⟨1, _⟩ => exact dCls_rhs1 _ _)
  rw [el, er]

/-- The classifier's body at `(p, q)`. -/
theorem cls_pay (x : Vec Ideal S1024x128 .f32) (w : Vec Ideal S128x2 .f32) (b : Vec Ideal S1x2 .f32) (p : Fin 1024) (q : Fin 2) :
    k4_pay1 (F := Ideal) x w b (ix2 p q) = (∑ k : Fin 128, x (ix2 p k) * w (ix2 k q)) + b (ix2 (0 : Fin 1) q) := by
  unfold k4_pay1
  rw [shapeCast_self, shapeCast_self]
  refine (addf_apply _ _ (ix2 p q)).trans ?_
  rw [broadcastTo_1b_ab_apply b broadcasts_S1x2_S1024x2 p q]
  exact congrArg (· + b (ix2 (0 : Fin 1) q)) (matmul_cls_apply _ _ p q)

/-! ## The three layers as functions of whole arrays

What each kind of region leaves in its output array, index by index, as one function of the arrays it reads. -/

/-- Zero offsets, however spelt. -/
theorem hz2 : (![0, 0] : Fin 2 → Nat) = fun _ => 0 := funext fun a => by fin_cases a <;> rfl

/-- A linear layer: row `i 0` of `X` against column `i 1` of the weight. -/
def rowsTimes (X : S100000x128.Idx → EReal) (Wt : S128x128.Idx → EReal) : S100000x128.Idx → EReal :=
  fun i => ∑ k : Fin 128, X (ix2 (n0 := 100000) (i 0) k) * Wt (ix2 (n1 := 128) k (i 1))

/-- Bias and activation: the bias row's entry at the column added, then the maximum with zero. -/
def biasRelu (A : S100000x128.Idx → EReal) (b : S1x128.Idx → EReal) : S100000x128.Idx → EReal :=
  fun i => max (A i + b (ix2 (0 : Fin 1) (n1 := 128) (i 1))) (Ideal.ofBits .f32 0x00000000#32)

/-- The classifier: a pooled row against a weight column, plus the bias row's entry at the column. -/
def pooledTimes (P : S1024x128.Idx → EReal) (Wc : S128x2.Idx → EReal) (b : S1x2.Idx → EReal) : S1024x2.Idx → EReal :=
  fun i => (∑ k : Fin 128, P (ix2 (n0 := 1024) (i 0) k) * Wc (ix2 (n1 := 2) k (i 1))) + b (ix2 (0 : Fin 1) (n1 := 2) (i 1))

end Cert.KernelIdeal.Hand

end
-- ==== Proof.LinRegion1.lean ====
/-
  The FIRST LINEAR LAYER's region (custom call 0): what the pipelined region leaves in its output array, for ANY contents `V` of the buffers it is entered
  from. The grid has 50 points; point `t` reads rows `2000 t … 2000 t + 1999` of the input array and the whole 128 × 128
  weight, and writes the same rows of the output. Its body stores, at row `p` and column `q` of the block, the sum over `k` of
  `x[p,k] · w[k,q]`; so what point `t` writes back is block `t` of ONE function of the two arrays (`rowsTimes`), the 50 blocks
  tile the 100000 rows, and the array ends holding that function.
-/
import proofs.«122321_j38637525795005_1_alg».proof.Proof.Gen.KernelIdeal.Frame
import proofs.«122321_j38637525795005_1_alg».proof.Proof.Payloads

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the input and output windows are on row block `t`, the weight's
    window on its one block. -/
theorem lin1_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t`, row `p`: row `2000 t + p` of the input array. -/
theorem lin1_xblk (c : Dev nD) (t : Fin cfg0.N) (p : Fin 2000) (k : Fin 128) (r : Fin 100000) (hr : r.val = t.val * 2000 + p.val) :
    (iblk0 V c 0 t : Vec Ideal S2000x128 .f32) (ix2 p k) = (V c main_arg0 : S100000x128.Idx → EReal) (ix2 r k) := by
  obtain ⟨e0, e1, -⟩ := lin1_idx t
  unfold iblk0
  rw [View.read_apply]
  show V c main_arg0 _ = V c main_arg0 _
  refine congrArg (V c main_arg0) ?_
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The weight's block at any point is the weight. -/
theorem lin1_wblk (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e0, e1, -⟩ := lin1_idx t
  unfold iblk0
  rw [View.read_apply]
  show V c main_arg3 _ = V c main_arg3 _
  refine congrArg (V c main_arg3) ?_
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- Where row `p`, column `q` of point `t`'s output block sits in the output array. -/
theorem lin1_oemb (t : Fin cfg0.N) (p : Fin 2000) (q : Fin 128) (r : Fin 100000) (hr : r.val = t.val * 2000 + p.val) :
    ((cfg0.win 2).blk t).view.emb (ix2 p q) = (ix2 r q : S100000x128.Idx) := by
  obtain ⟨-, -, -, -, e0, e1⟩ := lin1_idx t
  funext a
  apply Fin.ext
  match a with
  | ⟨0, _⟩ => show win0_2.index t 0 * 2000 + 1 * p.val = r.val; rw [e0, hr]; omega
  | ⟨1, _⟩ => show win0_2.index t 1 * 128 + 1 * q.val = q.val; rw [e1]; omega

/-- WHAT POINT `t` WRITES BACK is block `t` of `rowsTimes` of the two arrays as the region finds them. -/
theorem lin1_flushed (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero hz2]
  simp only [View.ld_unit_zero (S := S2000x128) hz2, View.ld_unit_zero (S := S128x128) hz2]
  funext j
  obtain ⟨p, q, rfl⟩ : ∃ (p : Fin 2000) (q : Fin 128), j = ix2 p q := ⟨j 0, j 1, eq_ix2 j⟩
  have ht : t.val < 50 := Nat.lt_of_lt_of_eq t.isLt N_0
  have hp : p.val < 2000 := p.isLt
  rw [View.read_apply, lin1_oemb t p q ⟨t.val * 2000 + p.val, by omega⟩ rfl]
  refine (lin1_pay _ _ p q).trans ?_
  unfold rowsTimes
  refine Finset.sum_congr rfl fun k _ => ?_
  rw [lin1_xblk V c t p k ⟨t.val * 2000 + p.val, by omega⟩ rfl, lin1_wblk V c t k q]

/-- An index of the output array is in point `t`'s block iff each coordinate is in the block's range on its axis. -/
theorem lin1_mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Every row of the output is in the block of the point `row / 2000`. -/
theorem lin1_cover (i : S100000x128.Idx) :
    ∃ t : Fin cfg0.N, (cfg0.win 2).flush t = true ∧ i ∈ ((cfg0.win 2).blk t).view.set := by
  have h0 : (i 0).val < 100000 := idx2_lt0 i
  have h1 : (i 1).val < 128 := idx2_lt1 i
  have hN : cfg0.N = 50 := N_0
  have hlt : (i 0).val / 2000 < cfg0.N := by rw [hN]; omega
  obtain ⟨-, -, -, -, e0, e1⟩ := lin1_idx ⟨(i 0).val / 2000, hlt⟩
  refine ⟨⟨(i 0).val / 2000, hlt⟩, flush0_2 _, ?_⟩
  rw [lin1_mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e1]
    omega

/-- THE OUTPUT ARRAY after the region: every row of the input against the weight. -/
theorem lin1_array (c : Dev nD) : (dat0 V c).arrAt 2 cfg0.N = rowsTimes (V c main_arg0) (V c main_arg3) :=
  (dat0 V c).arrAt_eq_of_cover 2 (rowsTimes (V c main_arg0) (V c main_arg3)) (fun t _ => lin1_flushed V c t) lin1_cover

end Cert.KernelIdeal.Hand

end
-- ==== Proof.LinRegion2.lean ====
/-
  The SECOND LINEAR LAYER's region (custom call 2): what the pipelined region leaves in its output array, for ANY contents `V` of the buffers it is entered
  from. The grid has 50 points; point `t` reads rows `2000 t … 2000 t + 1999` of the input array and the whole 128 × 128
  weight, and writes the same rows of the output. Its body stores, at row `p` and column `q` of the block, the sum over `k` of
  `x[p,k] · w[k,q]`; so what point `t` writes back is block `t` of ONE function of the two arrays (`rowsTimes`), the 50 blocks
  tile the 100000 rows, and the array ends holding that function.
-/
import proofs.«122321_j38637525795005_1_alg».proof.Proof.Gen.KernelIdeal.Frame
import proofs.«122321_j38637525795005_1_alg».proof.Proof.Payloads

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the input and output windows are on row block `t`, the weight's
    window on its one block. -/
theorem lin2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point `t`, row `p`: row `2000 t + p` of the input array. -/
theorem lin2_xblk (c : Dev nD) (t : Fin cfg2.N) (p : Fin 2000) (k : Fin 128) (r : Fin 100000) (hr : r.val = t.val * 2000 + p.val) :
    (iblk2 V c 0 t : Vec Ideal S2000x128 .f32) (ix2 p k) = (V c main_v47 : S100000x128.Idx → EReal) (ix2 r k) := by
  obtain ⟨e0, e1, -⟩ := lin2_idx t
  unfold iblk2
  rw [View.read_apply]
  show V c main_v47 _ = V c main_v47 _
  refine congrArg (V c main_v47) ?_
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The weight's block at any point is the weight. -/
theorem lin2_wblk (c : Dev nD) (t : Fin cfg2.N) (k : Fin 128) (q : Fin 128) :
    (iblk2 V c 1 t : Vec Ideal S128x128 .f32) (ix2 k q) = (V c main_arg5 : S128x128.Idx → EReal) (ix2 k q) := by
  obtain ⟨-, -, e0, e1, -⟩ := lin2_idx t
  unfold iblk2
  rw [View.read_apply]
  show V c main_arg5 _ = V c main_arg5 _
  refine congrArg (V c main_arg5) ?_
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- Where row `p`, column `q` of point `t`'s output block sits in the output array. -/
theorem lin2_oemb (t : Fin cfg2.N) (p : Fin 2000) (q : Fin 128) (r : Fin 100000) (hr : r.val = t.val * 2000 + p.val) :
    ((cfg2.win 2).blk t).view.emb (ix2 p q) = (ix2 r q : S100000x128.Idx) := by
  obtain ⟨-, -, -, -, e0, e1⟩ := lin2_idx t
  funext a
  apply Fin.ext
  match a with
  | ⟨0, _⟩ => show win2_2.index t 0 * 2000 + 1 * p.val = r.val; rw [e0, hr]; omega
  | ⟨1, _⟩ => show win2_2.index t 1 * 128 + 1 * q.val = q.val; rw [e1]; omega

/-- WHAT POINT `t` WRITES BACK is block `t` of `rowsTimes` of the two arrays as the region finds them. -/
theorem lin2_flushed (c : Dev nD) (t : Fin cfg2.N) :
    (dat2 V c).flushed 2 t = ((cfg2.win 2).blk t).view.read (Elt Ideal) (rowsTimes (V c main_v47) (V c main_arg5)) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x128) hz2]
  funext j
  obtain ⟨p, q, rfl⟩ : ∃ (p : Fin 2000) (q : Fin 128), j = ix2 p q := ⟨j 0, j 1, eq_ix2 j⟩
  have ht : t.val < 50 := Nat.lt_of_lt_of_eq t.isLt N_2
  have hp : p.val < 2000 := p.isLt
  rw [View.read_apply, lin2_oemb t p q ⟨t.val * 2000 + p.val, by omega⟩ rfl]
  refine (lin2_pay _ _ p q).trans ?_
  unfold rowsTimes
  refine Finset.sum_congr rfl fun k _ => ?_
  rw [lin2_xblk V c t p k ⟨t.val * 2000 + p.val, by omega⟩ rfl, lin2_wblk V c t k q]

/-- An index of the output array is in point `t`'s block iff each coordinate is in the block's range on its axis. -/
theorem lin2_mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every row of the output is in the block of the point `row / 2000`. -/
theorem lin2_cover (i : S100000x128.Idx) :
    ∃ t : Fin cfg2.N, (cfg2.win 2).flush t = true ∧ i ∈ ((cfg2.win 2).blk t).view.set := by
  have h0 : (i 0).val < 100000 := idx2_lt0 i
  have h1 : (i 1).val < 128 := idx2_lt1 i
  have hN : cfg2.N = 50 := N_2
  have hlt : (i 0).val / 2000 < cfg2.N := by rw [hN]; omega
  obtain ⟨-, -, -, -, e0, e1⟩ := lin2_idx ⟨(i 0).val / 2000, hlt⟩
  refine ⟨⟨(i 0).val / 2000, hlt⟩, flush2_2 _, ?_⟩
  rw [lin2_mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    rw [e1]
    omega

/-- THE OUTPUT ARRAY after the region: every row of the input against the weight. -/
theorem lin2_array (c : Dev nD) : (dat2 V c).arrAt 2 cfg2.N = rowsTimes (V c main_v47) (V c main_arg5) :=
  (dat2 V c).arrAt_eq_of_cover 2 (rowsTimes (V c main_v47) (V c main_arg5)) (fun t _ => lin2_flushed V c t) lin2_cover

end Cert.KernelIdeal.Hand

end
-- ==== Proof.ActRegion1.lean ====
/-
  The FIRST ACTIVATION's region (custom call 1): what the pipelined region leaves in its output array, for ANY contents `V` of the buffers it is entered
  from. The grid has 50 points; point `t` reads rows `2000 t … 2000 t + 1999` of the aggregated array and the one bias row,
  and writes the same rows of the output. Its body stores, at row `p` and column `q`, `max (x[p,q] + b[0,q]) 0`; so what point
  `t` writes back is block `t` of ONE function of the two arrays (`biasRelu`), the 50 blocks tile the 100000 rows, and the
  array ends holding that function.
-/
import proofs.«122321_j38637525795005_1_alg».proof.Proof.Gen.KernelIdeal.Frame
import proofs.«122321_j38637525795005_1_alg».proof.Proof.Payloads

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the input and output windows are on row block `t`, the bias row's
    window on its one block. -/
theorem act1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t`, row `p`: row `2000 t + p` of the input array. -/
theorem act1_xblk (c : Dev nD) (t : Fin cfg1.N) (p : Fin 2000) (q : Fin 128) (r : Fin 100000) (hr : r.val = t.val * 2000 + p.val) :
    (iblk1 V c 0 t : Vec Ideal S2000x128 .f32) (ix2 p q) = (V c main_v45 : S100000x128.Idx → EReal) (ix2 r q) := by
  obtain ⟨e0, e1, -⟩ := act1_idx t
  unfold iblk1
  rw [View.read_apply]
  show V c main_v45 _ = V c main_v45 _
  refine congrArg (V c main_v45) ?_
  funext a
  apply Fin.ext
  match a with
  | ⟨0, _⟩ => show win1_0.index t 0 * 2000 + 1 * p.val = r.val; rw [e0, hr]; omega
  | ⟨1, _⟩ => show win1_0.index t 1 * 128 + 1 * q.val = q.val; rw [e1]; omega

/-- The bias row's block at any point is the bias row. -/
theorem act1_bblk (c : Dev nD) (t : Fin cfg1.N) (q : Fin 128) :
    (iblk1 V c 1 t : Vec Ideal S1x128 .f32) (ix2 (0 : Fin 1) q) = (V c main_v46 : S1x128.Idx → EReal) (ix2 (0 : Fin 1) q) := by
  obtain ⟨-, -, e0, e1, -⟩ := act1_idx t
  unfold iblk1
  rw [View.read_apply]
  show V c main_v46 _ = V c main_v46 _
  refine congrArg (V c main_v46) ?_
  funext a
  apply Fin.ext
  match a with
  | ⟨0, _⟩ => show win1_1.index t 0 * 1 + 1 * 0 = 0; rw [e0]
  | ⟨1, _⟩ => show win1_1.index t 1 * 128 + 1 * q.val = q.val; rw [e1]; omega

/-- Where row `p`, column `q` of point `t`'s output block sits in the output array. -/
theorem act1_oemb (t : Fin cfg1.N) (p : Fin 2000) (q : Fin 128) (r : Fin 100000) (hr : r.val = t.val * 2000 + p.val) :
    ((cfg1.win 2).blk t).view.emb (ix2 p q) = (ix2 r q : S100000x128.Idx) := by
  obtain ⟨-, -, -, -, e0, e1⟩ := act1_idx t
  funext a
  apply Fin.ext
  match a with
  | ⟨0, _⟩ => show win1_2.index t 0 * 2000 + 1 * p.val = r.val; rw [e0, hr]; omega
  | ⟨1, _⟩ => show win1_2.index t 1 * 128 + 1 * q.val = q.val; rw [e1]; omega

/-- WHAT POINT `t` WRITES BACK is block `t` of `biasRelu` of the two arrays as the region finds them. -/
theorem act1_flushed (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S1x128) hz2]
  funext j
  obtain ⟨p, q, rfl⟩ : ∃ (p : Fin 2000) (q : Fin 128), j = ix2 p q := ⟨j 0, j 1, eq_ix2 j⟩
  have ht : t.val < 50 := Nat.lt_of_lt_of_eq t.isLt N_1
  have hp : p.val < 2000 := p.isLt
  rw [View.read_apply, act1_oemb t p q ⟨t.val * 2000 + p.val, by omega⟩ rfl]
  refine (act1_pay _ _ p q).trans ?_
  unfold biasRelu
  rw [act1_xblk V c t p q ⟨t.val * 2000 + p.val, by omega⟩ rfl, act1_bblk V c t q]
  rfl

/-- An index of the output array is in point `t`'s block iff each coordinate is in the block's range on its axis. -/
theorem act1_mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Every row of the output is in the block of the point `row / 2000`. -/
theorem act1_cover (i : S100000x128.Idx) :
    ∃ t : Fin cfg1.N, (cfg1.win 2).flush t = true ∧ i ∈ ((cfg1.win 2).blk t).view.set := by
  have h0 : (i 0).val < 100000 := idx2_lt0 i
  have h1 : (i 1).val < 128 := idx2_lt1 i
  have hN : cfg1.N = 50 := N_1
  have hlt : (i 0).val / 2000 < cfg1.N := by rw [hN]; omega
  obtain ⟨-, -, -, -, e0, e1⟩ := act1_idx ⟨(i 0).val / 2000, hlt⟩
  refine ⟨⟨(i 0).val / 2000, hlt⟩, flush1_2 _, ?_⟩
  rw [act1_mem_blk]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    rw [e1]
    omega

/-- THE OUTPUT ARRAY after the region: the bias added to every row, then the maximum with zero. -/
theorem act1_array (c : Dev nD) : (dat1 V c).arrAt 2 cfg1.N = biasRelu (V c main_v45) (V c main_v46) :=
  (dat1 V c).arrAt_eq_of_cover 2 (biasRelu (V c main_v45) (V c main_v46)) (fun t _ => act1_flushed V c t) act1_cover

end Cert.KernelIdeal.Hand

end
-- ==== Proof.ActRegion2.lean ====
/-
  The SECOND ACTIVATION's region (custom call 3): what the pipelined region leaves in its output array, for ANY contents `V` of the buffers it is entered
  from. The grid has 50 points; point `t` reads rows `2000 t … 2000 t + 1999` of the aggregated array and the one bias row,
  and writes the same rows of the output. Its body stores, at row `p` and column `q`, `max (x[p,q] + b[0,q]) 0`; so what point
  `t` writes back is block `t` of ONE function of the two arrays (`biasRelu`), the 50 blocks tile the 100000 rows, and the
  array ends holding that function.
-/
import proofs.«122321_j38637525795005_1_alg».proof.Proof.Gen.KernelIdeal.Frame
import proofs.«122321_j38637525795005_1_alg».proof.Proof.Payloads

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the input and output windows are on row block `t`, the bias row's
    window on its one block. -/
theorem act2_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input block at point `t`, row `p`: row `2000 t + p` of the input array. -/
theorem act2_xblk (c : Dev nD) (t : Fin cfg3.N) (p : Fin 2000) (q : Fin 128) (r : Fin 100000) (hr : r.val = t.val * 2000 + p.val) :
    (iblk3 V c 0 t : Vec Ideal S2000x128 .f32) (ix2 p q) = (V c main_v60 : S100000x128.Idx → EReal) (ix2 r q) := by
  obtain ⟨e0, e1, -⟩ := act2_idx t
  unfold iblk3
  rw [View.read_apply]
  show V c main_v60 _ = V c main_v60 _
  refine congrArg (V c main_v60) ?_
  funext a
  apply Fin.ext
  match a with
  | ⟨0, _⟩ => show win3_0.index t 0 * 2000 + 1 * p.val = r.val; rw [e0, hr]; omega
  | ⟨1, _⟩ => show win3_0.index t 1 * 128 + 1 * q.val = q.val; rw [e1]; omega

/-- The bias row's block at any point is the bias row. -/
theorem act2_bblk (c : Dev nD) (t : Fin cfg3.N) (q : Fin 128) :
    (iblk3 V c 1 t : Vec Ideal S1x128 .f32) (ix2 (0 : Fin 1) q) = (V c main_v61 : S1x128.Idx → EReal) (ix2 (0 : Fin 1) q) := by
  obtain ⟨-, -, e0, e1, -⟩ := act2_idx t
  unfold iblk3
  rw [View.read_apply]
  show V c main_v61 _ = V c main_v61 _
  refine congrArg (V c main_v61) ?_
  funext a
  apply Fin.ext
  match a with
  | ⟨0, _⟩ => show win3_1.index t 0 * 1 + 1 * 0 = 0; rw [e0]
  | ⟨1, _⟩ => show win3_1.index t 1 * 128 + 1 * q.val = q.val; rw [e1]; omega

/-- Where row `p`, column `q` of point `t`'s output block sits in the output array. -/
theorem act2_oemb (t : Fin cfg3.N) (p : Fin 2000) (q : Fin 128) (r : Fin 100000) (hr : r.val = t.val * 2000 + p.val) :
    ((cfg3.win 2).blk t).view.emb (ix2 p q) = (ix2 r q : S100000x128.Idx) := by
  obtain ⟨-, -, -, -, e0, e1⟩ := act2_idx t
  funext a
  apply Fin.ext
  match a with
  | ⟨0, _⟩ => show win3_2.index t 0 * 2000 + 1 * p.val = r.val; rw [e0, hr]; omega
  | ⟨1, _⟩ => show win3_2.index t 1 * 128 + 1 * q.val = q.val; rw [e1]; omega

/-- WHAT POINT `t` WRITES BACK is block `t` of `biasRelu` of the two arrays as the region finds them. -/
theorem act2_flushed (c : Dev nD) (t : Fin cfg3.N) :
    (dat3 V c).flushed 2 t = ((cfg3.win 2).blk t).view.read (Elt Ideal) (biasRelu (V c main_v60) (V c main_v61)) := by
  show (cfg3.win 2).cut (grid3.coords t) ((dat3 V c).after 2 t) = _
  rw [after3_2]
  unfold out3_2
  rw [View.canon_unit_zero hz2]
  simp only [View.ld_unit_zero (S := S2000x128) hz2, View.ld_unit_zero (S := S1x128) hz2]
  funext j
  obtain ⟨p, q, rfl⟩ : ∃ (p : Fin 2000) (q : Fin 128), j = ix2 p q := ⟨j 0, j 1, eq_ix2 j⟩
  have ht : t.val < 50 := Nat.lt_of_lt_of_eq t.isLt N_3
  have hp : p.val < 2000 := p.isLt
  rw [View.read_apply, act2_oemb t p q ⟨t.val * 2000 + p.val, by omega⟩ rfl]
  refine (act2_pay _ _ p q).trans ?_
  unfold biasRelu
  rw [act2_xblk V c t p q ⟨t.val * 2000 + p.val, by omega⟩ rfl, act2_bblk V c t q]
  rfl

/-- An index of the output array is in point `t`'s block iff each coordinate is in the block's range on its axis. -/
theorem act2_mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v62).slice (win3_2.rect t)).set ↔ _
  rw [View.set_slice_whole, Rect.mem_set_unit]
  exact Iff.rfl

/-- Every row of the output is in the block of the point `row / 2000`. -/
theorem act2_cover (i : S100000x128.Idx) :
    ∃ t : Fin cfg3.N, (cfg3.win 2).flush t = true ∧ i ∈ ((cfg3.win 2).blk t).view.set := by
  have h0 : (i 0).val < 100000 := idx2_lt0 i
  have h1 : (i 1).val < 128 := idx2_lt1 i
  have hN : cfg3.N = 50 := N_3
  have hlt : (i 0).val / 2000 < cfg3.N := by rw [hN]; omega
  obtain ⟨-, -, -, -, e0, e1⟩ := act2_idx ⟨(i 0).val / 2000, hlt⟩
  refine ⟨⟨(i 0).val / 2000, hlt⟩, flush3_2 _, ?_⟩
  rw [act2_mem_blk]
  intro a
  match a with
  | ⟨0, _⟩ =>
    show win3_2.index ⟨(i 0).val / 2000, hlt⟩ (0 : Fin 2) * 2000 ≤ (i 0).val ∧ (i 0).val < win3_2.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win3_2.index ⟨(i 0).val / 2000, hlt⟩ (1 : Fin 2) * 128 ≤ (i 1).val ∧ (i 1).val < win3_2.index ⟨(i 0).val / 2000, hlt⟩ (1 : Fin 2) * 128 + 128
    rw [e1]
    omega

/-- THE OUTPUT ARRAY after the region: the bias added to every row, then the maximum with zero. -/
theorem act2_array (c : Dev nD) : (dat3 V c).arrAt 2 cfg3.N = biasRelu (V c main_v60) (V c main_v61) :=
  (dat3 V c).arrAt_eq_of_cover 2 (biasRelu (V c main_v60) (V c main_v61)) (fun t _ => act2_flushed V c t) act2_cover

end Cert.KernelIdeal.Hand

end
-- ==== Proof.ClsRegion.lean ====
/-
  The CLASSIFIER's region (custom call 4): what it leaves in the program's result array, for ANY contents `V` of the
  buffers it is entered from. The grid has ONE point, whose blocks are the whole arrays: the 1024 pooled rows, the
  128 × 2 weight, the bias row and the 1024 × 2 result. Its body stores, at row `p` and column `q`,
  `(∑ k, x[p,k] · w[k,q]) + b[0,q]`; the one block covers the result, which ends holding `pooledTimes` of the three arrays.
-/
import proofs.«122321_j38637525795005_1_alg».proof.Proof.Gen.KernelIdeal.Frame
import proofs.«122321_j38637525795005_1_alg».proof.Proof.Payloads

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps at the grid's one point: every window is on its block `(0, 0)`. -/
theorem cls_idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled rows' block is the pooled array. -/
theorem cls_xblk (c : Dev nD) (t : Fin cfg4.N) (p : Fin 1024) (k : Fin 128) :
    (iblk4 V c 0 t : Vec Ideal S1024x128 .f32) (ix2 p k) = (V c main_v74 : S1024x128.Idx → EReal) (ix2 p k) := by
  obtain ⟨e0, e1, -⟩ := cls_idx t
  unfold iblk4
  rw [View.read_apply]
  show V c main_v74 _ = V c main_v74 _
  refine congrArg (V c main_v74) ?_
  funext a
  apply Fin.ext
  match a with
  | ⟨0, _⟩ => show win4_0.index t 0 * 1024 + 1 * p.val = p.val; rw [e0]; omega
  | ⟨1, _⟩ => show win4_0.index t 1 * 128 + 1 * k.val = k.val; rw [e1]; omega

/-- The weight's block is the weight. -/
theorem cls_wblk (c : Dev nD) (t : Fin cfg4.N) (k : Fin 128) (q : Fin 2) :
    (iblk4 V c 1 t : Vec Ideal S128x2 .f32) (ix2 k q) = (V c main_arg7 : S128x2.Idx → EReal) (ix2 k q) := by
  obtain ⟨-, -, e0, e1, -⟩ := cls_idx t
  unfold iblk4
  rw [View.read_apply]
  show V c main_arg7 _ = V c main_arg7 _
  refine congrArg (V c main_arg7) ?_
  funext a
  apply Fin.ext
  match a with
  | ⟨0, _⟩ => show win4_1.index t 0 * 128 + 1 * k.val = k.val; rw [e0]; omega
  | ⟨1, _⟩ => show win4_1.index t 1 * 2 + 1 * q.val = q.val; rw [e1]; omega

/-- The bias row's block is the bias row. -/
theorem cls_bblk (c : Dev nD) (t : Fin cfg4.N) (q : Fin 2) :
    (iblk4 V c 2 t : Vec Ideal S1x2 .f32) (ix2 (0 : Fin 1) q) = (V c main_v75 : S1x2.Idx → EReal) (ix2 (0 : Fin 1) q) := by
  obtain ⟨-, -, -, -, e0, e1, -⟩ := cls_idx t
  unfold iblk4
  rw [View.read_apply]
  show V c main_v75 _ = V c main_v75 _
  refine congrArg (V c main_v75) ?_
  funext a
  apply Fin.ext
  match a with
  | ⟨0, _⟩ => show win4_2.index t 0 * 1 + 1 * 0 = 0; rw [e0]
  | ⟨1, _⟩ => show win4_2.index t 1 * 2 + 1 * q.val = q.val; rw [e1]; omega

/-- Row `p`, column `q` of the output block sits at `(p, q)` of the result array. -/
theorem cls_oemb (t : Fin cfg4.N) (p : Fin 1024) (q : Fin 2) :
    ((cfg4.win 3).blk t).view.emb (ix2 p q) = (ix2 p q : S1024x2.Idx) := by
  obtain ⟨-, -, -, -, -, -, e0, e1⟩ := cls_idx t
  funext a
  apply Fin.ext
  match a with
  | ⟨0, _⟩ => show win4_3.index t 0 * 1024 + 1 * p.val = p.val; rw [e0]; omega
  | ⟨1, _⟩ => show win4_3.index t 1 * 2 + 1 * q.val = q.val; rw [e1]; omega

/-- WHAT THE ONE POINT WRITES BACK is the block of `pooledTimes` of the three arrays as the region finds them. -/
theorem cls_flushed (c : Dev nD) (t : Fin cfg4.N) :
    (dat4 V c).flushed 3 t = ((cfg4.win 3).blk t).view.read (Elt Ideal) (pooledTimes (V c main_v74) (V c main_arg7) (V c main_v75)) := by
  show (cfg4.win 3).cut (grid4.coords t) ((dat4 V c).after 3 t) = _
  rw [after4_3]
  unfold out4_3
  rw [View.canon_unit_zero hz2]
  simp only [View.ld_unit_zero (S := S1024x128) hz2, View.ld_unit_zero (S := S128x2) hz2, View.ld_unit_zero (S := S1x2) hz2]
  funext j
  obtain ⟨p, q, rfl⟩ : ∃ (p : Fin 1024) (q : Fin 2), j = ix2 p q := ⟨j 0, j 1, eq_ix2 j⟩
  rw [View.read_apply, cls_oemb t p q]
  refine (cls_pay _ _ _ p q).trans ?_
  unfold pooledTimes
  rw [cls_bblk V c t q]
  refine congrArg (· + (V c main_v75 : S1x2.Idx → EReal) (ix2 (0 : Fin 1) q)) ?_
  refine Finset.sum_congr rfl fun k _ => ?_
  rw [cls_xblk V c t p k, cls_wblk V c t k q]

/-- An index of the result array is in the point's block iff each coordinate is in the block's range on its axis. -/
theorem cls_mem_blk (t : Fin cfg4.N) (i : S1024x2.Idx) :
    i ∈ ((cfg4.win 3).blk t).view.set ↔ ∀ a : Fin 2, win4_3.index t a * S1024x2.size a ≤ (i a).val ∧ (i a).val < win4_3.index t a * S1024x2.size a + S1024x2.size a := by
  show i ∈ ((View.whole main_v76).slice (win4_3.rect t)).set ↔ _
  rw [View.set_slice_whole, Rect.mem_set_unit]
  exact Iff.rfl

/-- The one block covers the result array. -/
theorem cls_cover (i : S1024x2.Idx) :
    ∃ t : Fin cfg4.N, (cfg4.win 3).flush t = true ∧ i ∈ ((cfg4.win 3).blk t).view.set := by
  have h0 : (i 0).val < 1024 := idx2_lt0 i
  have h1 : (i 1).val < 2 := idx2_lt1 i
  have hN : cfg4.N = 1 := N_4
  have hlt : 0 < cfg4.N := by rw [hN]; omega
  obtain ⟨-, -, -, -, -, -, e0, e1⟩ := cls_idx ⟨0, hlt⟩
  refine ⟨⟨0, hlt⟩, flush4_3 _, ?_⟩
  rw [cls_mem_blk]
  intro a
  match a with
  | ⟨0, _⟩ =>
    show win4_3.index ⟨0, hlt⟩ (0 : Fin 2) * 1024 ≤ (i 0).val ∧ (i 0).val < win4_3.index ⟨0, hlt⟩ (0 : Fin 2) * 1024 + 1024
    rw [e0]
    omega
  | ⟨1, _⟩ =>
    show win4_3.index ⟨0, hlt⟩ (1 : Fin 2) * 2 ≤ (i 1).val ∧ (i 1).val < win4_3.index ⟨0, hlt⟩ (1 : Fin 2) * 2 + 2
    rw [e1]
    omega

/-- THE RESULT ARRAY after the region: every pooled row against the weight, plus the bias row. -/
theorem cls_array (c : Dev nD) : (dat4 V c).arrAt 3 cfg4.N = pooledTimes (V c main_v74) (V c main_arg7) (V c main_v75) :=
  (dat4 V c).arrAt_eq_of_cover 3 (pooledTimes (V c main_v74) (V c main_arg7) (V c main_v75)) (fun t _ => cls_flushed V c t) cls_cover

end Cert.KernelIdeal.Hand

end
-- ==== Proof.ArgsKept.lean ====
/-
  Buffers that nothing writes between two boundaries of the kernel program's fold hold there what they held before.
  Per argument array read late in the program (a weight, a bias, the graph ids), one equation per boundary, from the
  launch up to the boundary where it is read: a stretch of host operations does not write it (no operation's result
  buffer is that array), a region does not write it (it is none of the region's arrays). The same for the three arrays
  computed before the first region and read again by both aggregation stretches: the edge sources, the edge targets and
  the edge weights.
-/
import proofs.«122321_j38637525795005_1_alg».proof.Proof.Gen.KernelIdeal.Frame

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ### `main_arg0` is as launched at every boundary up to 3 -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W1_main_arg0 m ρ c
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_main_arg0 m ρ c

/-! ### `main_arg3` is as launched at every boundary up to 3 -/

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W1_main_arg3 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_main_arg3 m ρ c

/-! ### `main_arg4` is as launched at every boundary up to 4 -/

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W1_main_arg4 m ρ c
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_main_arg4 m ρ c
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = m ((c : Thread nD τ).loc main_arg4) := W3_main_arg4 m ρ c

/-! ### `main_arg5` is as launched at every boundary up to 6 -/

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W1_main_arg5 m ρ c
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W2_main_arg5 m ρ c
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = m ((c : Thread nD τ).loc main_arg5) := W3_main_arg5 m ρ c
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W4_main_arg5 m ρ c
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = m ((c : Thread nD τ).loc main_arg5) := W5_main_arg5 m ρ c

/-! ### `main_arg6` is as launched at every boundary up to 7 -/

theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W1_main_arg6 m ρ c
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_main_arg6 m ρ c
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = m ((c : Thread nD τ).loc main_arg6) := W3_main_arg6 m ρ c
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W4_main_arg6 m ρ c
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = m ((c : Thread nD τ).loc main_arg6) := W5_main_arg6 m ρ c
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = m ((c : Thread nD τ).loc main_arg6) := W6_main_arg6 m ρ c

/-! ### `main_arg2` is as launched at every boundary up to 9 -/

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W1_main_arg2 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_main_arg2 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := W3_main_arg2 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W4_main_arg2 m ρ c
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := W5_main_arg2 m ρ c
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = m ((c : Thread nD τ).loc main_arg2) := W6_main_arg2 m ρ c
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W7_main_arg2 m ρ c
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = m ((c : Thread nD τ).loc main_arg2) := W8_main_arg2 m ρ c

/-! ### `main_arg8` is as launched at every boundary up to 9 -/

theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W1_main_arg8 m ρ c
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_main_arg8 m ρ c
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := W3_main_arg8 m ρ c
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W4_main_arg8 m ρ c
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = m ((c : Thread nD τ).loc main_arg8) := W5_main_arg8 m ρ c
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = m ((c : Thread nD τ).loc main_arg8) := W6_main_arg8 m ρ c
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W7_main_arg8 m ρ c
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = m ((c : Thread nD τ).loc main_arg8) := W8_main_arg8 m ρ c

/-! ### `main_arg7` is as launched at every boundary up to 10 -/

theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W1_main_arg7 m ρ c
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_main_arg7 m ρ c
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = m ((c : Thread nD τ).loc main_arg7) := W3_main_arg7 m ρ c
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W4_main_arg7 m ρ c
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = m ((c : Thread nD τ).loc main_arg7) := W5_main_arg7 m ρ c
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = m ((c : Thread nD τ).loc main_arg7) := W6_main_arg7 m ρ c
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W7_main_arg7 m ρ c
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = m ((c : Thread nD τ).loc main_arg7) := W8_main_arg7 m ρ c
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W9_main_arg7 m ρ c

/-! ### `main_v3` (computed before the first region) is not written again: boundaries 4 to 7 hold what boundary 3 holds -/

theorem W4_main_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
    _ = W3 m ρ c (Proc.devRef .tc main_v3) := rfl
theorem W5_main_v3 (c : Dev nD) : W5 m ρ c (Proc.devRef .tc main_v3) = W3 m ρ c (Proc.devRef .tc main_v3) :=
  calc W5 m ρ c (Proc.devRef .tc main_v3)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_main_v3 m ρ c
theorem W6_main_v3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W3 m ρ c (Proc.devRef .tc main_v3) := W5_main_v3 m ρ c
theorem W7_main_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W3 m ρ c (Proc.devRef .tc main_v3) := W6_main_v3 m ρ c

/-! ### `main_v6` (computed before the first region) is not written again: boundaries 4 to 7 hold what boundary 3 holds -/

theorem W4_main_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
    _ = W3 m ρ c (Proc.devRef .tc main_v6) := rfl
theorem W5_main_v6 (c : Dev nD) : W5 m ρ c (Proc.devRef .tc main_v6) = W3 m ρ c (Proc.devRef .tc main_v6) :=
  calc W5 m ρ c (Proc.devRef .tc main_v6)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_main_v6 m ρ c
theorem W6_main_v6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W3 m ρ c (Proc.devRef .tc main_v6) := W5_main_v6 m ρ c
theorem W7_main_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W3 m ρ c (Proc.devRef .tc main_v6) := W6_main_v6 m ρ c

/-! ### `main_v32` (computed before the first region) is not written again: boundaries 4 to 7 hold what boundary 3 holds -/

theorem W4_main_v32 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)
    _ = W3 m ρ c (Proc.devRef .tc main_v32) := rfl
theorem W5_main_v32 (c : Dev nD) : W5 m ρ c (Proc.devRef .tc main_v32) = W3 m ρ c (Proc.devRef .tc main_v32) :=
  calc W5 m ρ c (Proc.devRef .tc main_v32)
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v32) := W4_main_v32 m ρ c
theorem W6_main_v32 (c : Dev nD) : W6 m ρ c (Proc.devRef .tc main_v32) = W3 m ρ c (Proc.devRef .tc main_v32) :=
  calc W6 m ρ c (Proc.devRef .tc main_v32)
    _ = W5 m ρ c (Proc.devRef .tc main_v32) := W6_of_ne m ρ c main_v32 (by decide)
    _ = W3 m ρ c (Proc.devRef .tc main_v32) := W5_main_v32 m ρ c
theorem W7_main_v32 (c : Dev nD) : W7 m ρ c (Proc.devRef .tc main_v32) = W3 m ρ c (Proc.devRef .tc main_v32) :=
  calc W7 m ρ c (Proc.devRef .tc main_v32)
    _ = W6 m ρ c (Proc.devRef .tc main_v32) := W7_of_ne m ρ c main_v32 (by decide)
    _ = W3 m ρ c (Proc.devRef .tc main_v32) := W6_main_v32 m ρ c

end Cert.KernelIdeal.Hand

end
-- ==== Proof.Prefix.lean ====
/-
  What the kernel program computes BEFORE its first region, read at the first region's entry (boundary 3 of the fold): the
  edge sources and targets with the self loops appended, and the edge weights `dinv[src] · dinv[dst]` from the degrees. The
  three stretches of host operations there are the reference's first operations on the same edge list, so each buffer
  holds the reference's stage of the launched edge list.
-/
import proofs.«122321_j38637525795005_1_alg».proof.Proof.Gen.KernelIdeal.Frame
import proofs.«122321_j38637525795005_1_alg».proof.Proof.RefRead
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The edge sources, self loops appended. -/
theorem W3_src (c : Dev nD) :
    W3 m ρ c (Proc.devRef .tc main_v3) = Cert.ReferenceIdeal.ReadP.val_main_v3 (F := Ideal) (m ((c : Thread nD τ).loc main_arg1)) := by
  dsimp only [W3, W2, W1, hostOps0, hostOps0_1, hostOps0_2]
  after_results_simp
  rfl

/-- The edge targets, self loops appended. -/
theorem W3_dst (c : Dev nD) :
    W3 m ρ c (Proc.devRef .tc main_v6) = Cert.ReferenceIdeal.ReadP.val_main_v6 (F := Ideal) (m ((c : Thread nD τ).loc main_arg1)) := by
  dsimp only [W3, W2, W1, hostOps0, hostOps0_1, hostOps0_2]
  after_results_simp
  rfl

/-! ## The edge weights, one stretch of host operations at a time

Each stretch is read over an ARBITRARY valuation of the buffers it starts from, so that what an earlier stretch computed
enters the next as an operand and is not unfolded again. -/

section Stretches

variable (Wv : Valuation τ sig (Elt Ideal))

/-- First stretch: is a node's degree (self loop included) positive. -/
theorem degpos_of (x1 : (⟨Cert.ReferenceIdeal.S2x1600000, .i32⟩ : BufTy).Contents (Elt Ideal)) (h1 : Wv (Proc.devRef .tc main_arg1) = x1) :
    StableHlo.after (hostOps0 (F := Ideal)) Wv (Proc.devRef .tc main_v12) = Cert.ReferenceIdeal.ReadP.val_main_v12 (F := Ideal) x1 := by
  subst h1
  dsimp only [hostOps0]
  after_results_simp
  rfl

/-- First stretch: the inverse square root of the degree (kept away from zero). -/
theorem rsqrtdeg_of (x1 : (⟨Cert.ReferenceIdeal.S2x1600000, .i32⟩ : BufTy).Contents (Elt Ideal)) (h1 : Wv (Proc.devRef .tc main_arg1) = x1) :
    StableHlo.after (hostOps0 (F := Ideal)) Wv (Proc.devRef .tc main_v15) = Cert.ReferenceIdeal.ReadP.val_main_v15 (F := Ideal) x1 := by
  subst h1
  dsimp only [hostOps0]
  after_results_simp
  rfl

/-- First stretch: the zero that replaces the inverse root of a zero degree. -/
theorem zero_of :
    StableHlo.after (hostOps0 (F := Ideal)) Wv (Proc.devRef .tc main_cst_3) = Cert.ReferenceIdeal.ReadP.val_main_cst_3 (F := Ideal) := by
  dsimp only [hostOps0]
  after_results_simp
  rfl

/-- First stretch: the edge sources. -/
theorem src_of (x1 : (⟨Cert.ReferenceIdeal.S2x1600000, .i32⟩ : BufTy).Contents (Elt Ideal)) (h1 : Wv (Proc.devRef .tc main_arg1) = x1) :
    StableHlo.after (hostOps0 (F := Ideal)) Wv (Proc.devRef .tc main_v3) = Cert.ReferenceIdeal.ReadP.val_main_v3 (F := Ideal) x1 := by
  subst h1
  dsimp only [hostOps0]
  after_results_simp
  rfl

/-- First stretch: the edge targets. -/
theorem dst_of (x1 : (⟨Cert.ReferenceIdeal.S2x1600000, .i32⟩ : BufTy).Contents (Elt Ideal)) (h1 : Wv (Proc.devRef .tc main_arg1) = x1) :
    StableHlo.after (hostOps0 (F := Ideal)) Wv (Proc.devRef .tc main_v6) = Cert.ReferenceIdeal.ReadP.val_main_v6 (F := Ideal) x1 := by
  subst h1
  dsimp only [hostOps0]
  after_results_simp
  rfl

/-- Second stretch: `dinv`, the inverse root where the degree is positive, zero elsewhere. -/
theorem dinv_of (x1 : (⟨Cert.ReferenceIdeal.S2x1600000, .i32⟩ : BufTy).Contents (Elt Ideal))
    (h12 : Wv (Proc.devRef .tc main_v12) = Cert.ReferenceIdeal.ReadP.val_main_v12 (F := Ideal) x1)
    (h15 : Wv (Proc.devRef .tc main_v15) = Cert.ReferenceIdeal.ReadP.val_main_v15 (F := Ideal) x1)
    (hc : Wv (Proc.devRef .tc main_cst_3) = Cert.ReferenceIdeal.ReadP.val_main_cst_3 (F := Ideal)) :
    StableHlo.after (hostOps0_1 (F := Ideal)) Wv (Proc.devRef .tc main_v16) = Cert.ReferenceIdeal.ReadP.val_main_v16 (F := Ideal) x1 := by
  dsimp only [hostOps0_1]
  after_results_simp
  show select (Wv (Proc.devRef .tc main_v12)) (Wv (Proc.devRef .tc main_v15))
      (broadcastInDim S100000 ![] bcast_S_S100000 (id (Wv (Proc.devRef .tc main_cst_3)))) = _
  rw [h12, h15, hc]
  rfl

/-- The second stretch does not write the edge sources. -/
theorem src_kept :
    StableHlo.after (hostOps0_1 (F := Ideal)) Wv (Proc.devRef .tc main_v3) = Wv (Proc.devRef .tc main_v3) := by
  dsimp only [hostOps0_1]
  after_results_simp

/-- The second stretch does not write the edge targets. -/
theorem dst_kept :
    StableHlo.after (hostOps0_1 (F := Ideal)) Wv (Proc.devRef .tc main_v6) = Wv (Proc.devRef .tc main_v6) := by
  dsimp only [hostOps0_1]
  after_results_simp

/-- Third stretch: the edge weights `dinv[src] · dinv[dst]`, as one column. -/
theorem nrm_of (x1 : (⟨Cert.ReferenceIdeal.S2x1600000, .i32⟩ : BufTy).Contents (Elt Ideal))
    (h3 : Wv (Proc.devRef .tc main_v3) = Cert.ReferenceIdeal.ReadP.val_main_v3 (F := Ideal) x1)
    (h6 : Wv (Proc.devRef .tc main_v6) = Cert.ReferenceIdeal.ReadP.val_main_v6 (F := Ideal) x1)
    (h16 : Wv (Proc.devRef .tc main_v16) = Cert.ReferenceIdeal.ReadP.val_main_v16 (F := Ideal) x1) :
    StableHlo.after (hostOps0_2 (F := Ideal)) Wv (Proc.devRef .tc main_v32) = Cert.ReferenceIdeal.ReadP.val_main_v32 (F := Ideal) x1 := by
  dsimp only [hostOps0_2]
  after_results_simp
  rw [h3, h6, h16]
  rfl

end Stretches

/-- The edge weights from the degrees, at the first region's entry. -/
theorem W3_nrm (c : Dev nD) :
    W3 m ρ c (Proc.devRef .tc main_v32) = Cert.ReferenceIdeal.ReadP.val_main_v32 (F := Ideal) (m ((c : Thread nD τ).loc main_arg1)) :=
  nrm_of (W2 m ρ c) _
    ((src_kept (W1 m ρ c)).trans (src_of (W0 m ρ c) _ rfl))
    ((dst_kept (W1 m ρ c)).trans (dst_of (W0 m ρ c) _ rfl))
    (dinv_of (W1 m ρ c) _ (degpos_of (W0 m ρ c) _ rfl) (rsqrtdeg_of (W0 m ρ c) _ rfl) (zero_of (W0 m ρ c)))

end Cert.KernelIdeal.Hand

end
-- ==== Proof.Glue.lean ====
/-
  The stretches of host operations BETWEEN the kernel program's regions are the reference's own operations: the gather of
  the source rows, the scaling by the edge weights and the scatter-add onto the target rows (after each linear layer), and
  the mean pooling over the graph ids (before the classifier). Each stretch is read here over an ARBITRARY valuation of the
  buffers it starts from: if the buffers it reads hold the reference's stages, the buffer it writes holds the reference's
  next stage. Neither side's gather or scatter is opened: the two terms are the same operations of the same operands.
  The bias vectors the stretches reshape to one row are read the same way.
-/
import proofs.«122321_j38637525795005_1_alg».proof.Proof.Gen.KernelIdeal.Launch
import proofs.«122321_j38637525795005_1_alg».proof.Proof.RefRead
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (Wv : Valuation τ sig (Elt Ideal))

/-- After the first linear layer: gather, scale, scatter-add. -/
theorem agg1_of (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal))
    (h33 : Wv (Proc.devRef .tc main_v33) = Cert.ReferenceIdeal.ReadP.val_main_v33 (F := Ideal) x0 x3)
    (h3 : Wv (Proc.devRef .tc main_v3) = Cert.ReferenceIdeal.ReadP.val_main_v3 (F := Ideal) x1)
    (h6 : Wv (Proc.devRef .tc main_v6) = Cert.ReferenceIdeal.ReadP.val_main_v6 (F := Ideal) x1)
    (h32 : Wv (Proc.devRef .tc main_v32) = Cert.ReferenceIdeal.ReadP.val_main_v32 (F := Ideal) x1) :
    StableHlo.after (hostOps1 (F := Ideal)) Wv (Proc.devRef .tc main_v45) = Cert.ReferenceIdeal.ReadP.val_main_v45 (F := Ideal) x0 x1 x3 := by
  dsimp only [hostOps1]
  after_results_simp
  rw [h33, h3, h6, h32]
  rfl

/-- The first bias, reshaped to one row. -/
theorem bias1_of :
    StableHlo.after (hostOps1 (F := Ideal)) Wv (Proc.devRef .tc main_v46)
      = shapeCast S1x128 (Wv (Proc.devRef .tc main_arg4)) shapeCasts_S128_S1x128 := by
  dsimp only [hostOps1]
  after_results_simp
  rfl

/-- After the second linear layer: gather, scale, scatter-add. -/
theorem agg2_of (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (h48 : Wv (Proc.devRef .tc main_v48) = Cert.ReferenceIdeal.ReadP.val_main_v50 (F := Ideal) x0 x1 x3 x4 x5)
    (h3 : Wv (Proc.devRef .tc main_v3) = Cert.ReferenceIdeal.ReadP.val_main_v3 (F := Ideal) x1)
    (h6 : Wv (Proc.devRef .tc main_v6) = Cert.ReferenceIdeal.ReadP.val_main_v6 (F := Ideal) x1)
    (h32 : Wv (Proc.devRef .tc main_v32) = Cert.ReferenceIdeal.ReadP.val_main_v32 (F := Ideal) x1) :
    StableHlo.after (hostOps3 (F := Ideal)) Wv (Proc.devRef .tc main_v60) = Cert.ReferenceIdeal.ReadP.val_main_v62 (F := Ideal) x0 x1 x3 x4 x5 := by
  dsimp only [hostOps3]
  after_results_simp
  rw [h48, h3, h6, h32]
  rfl

/-- The second bias, reshaped to one row. -/
theorem bias2_of :
    StableHlo.after (hostOps3 (F := Ideal)) Wv (Proc.devRef .tc main_v61)
      = shapeCast S1x128 (Wv (Proc.devRef .tc main_arg6)) shapeCasts_S128_S1x128 := by
  dsimp only [hostOps3]
  after_results_simp
  rfl

/-- Mean pooling over the graph ids: the per-graph sums over the per-graph counts (at least one). -/
theorem pool_of (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (h62 : Wv (Proc.devRef .tc main_v62) = Cert.ReferenceIdeal.ReadP.val_main_v66 (F := Ideal) x0 x1 x3 x4 x5 x6)
    (h2 : Wv (Proc.devRef .tc main_arg2) = x2) :
    StableHlo.after (hostOps4 (F := Ideal)) Wv (Proc.devRef .tc main_v74) = Cert.ReferenceIdeal.ReadP.val_main_v78 (F := Ideal) x0 x1 x2 x3 x4 x5 x6 := by
  dsimp only [hostOps4]
  after_results_simp
  rw [h62, h2]
  rfl

/-- The classifier's bias, reshaped to one row. -/
theorem bias3_of :
    StableHlo.after (hostOps4 (F := Ideal)) Wv (Proc.devRef .tc main_v75)
      = shapeCast S1x2 (Wv (Proc.devRef .tc main_arg8)) shapeCasts_S2_S1x2 := by
  dsimp only [hostOps4]
  after_results_simp
  rfl

end Cert.KernelIdeal.Hand

end
-- ==== Proof.RefLayers.lean ====
/-
  The three kinds of layer, as the kernel's regions compute them, ARE the reference's host operations at the ideal values,
  index by index:

  * a linear layer — row `i 0` of the input against column `i 1` of the weight — is the reference's `dot_general` with one
    contracted axis (the same sum over `k`, the same factors);
  * bias and activation — `max (a + b[0, q]) 0` with the bias reshaped to one row — is the reference's bias broadcast first
    to a row, then down the rows, added, and `relu`'s maximum with the broadcast zero;
  * the classifier — a pooled row against a weight column plus `b[0, q]` — is the reference's `dot_general` plus the bias
    broadcast the same two ways.

  Each is stated with the reference's own stage on the right, at the arguments the stage depends on.
-/
import proofs.«122321_j38637525795005_1_alg».proof.Proof.RefRead
import proofs.«122321_j38637525795005_1_alg».proof.Proof.Payloads

noncomputable section

namespace Cert.Bridge

open Idealize.ShloMosaic Idealize.ShloMosaic.TcCoe Idealize.ShloMosaic.ValueIdx
open Cert.KernelIdeal.Hand (rowsTimes biasRelu pooledTimes)
open Cert.ReferenceIdeal.ReadP

/-- The first linear layer. -/
theorem lin1_eq (x0 : (⟨Cert.ReferenceIdeal.S100000x128, .f32⟩ : BufTy).Contents (Elt Ideal)) (x3 : (⟨Cert.ReferenceIdeal.S128x128, .f32⟩ : BufTy).Contents (Elt Ideal)) : rowsTimes x0 x3 = val_main_v33 (F := Ideal) x0 x3 := by
  funext i
  rw [val_main_v33_apply]
  unfold rowsTimes
  refine Finset.sum_congr rfl fun k _ => ?_
  refine congrArg₂ (fun a b : EReal => a * b) (congrArg x0 (funext fun a => ?_)) (congrArg x3 (funext fun a => ?_))
  · match a with
    | ⟨0, _⟩ => rfl
    | ⟨1, _⟩ => rfl
  · match a with
    | ⟨0, _⟩ => rfl
    | ⟨1, _⟩ => rfl

/-- The second linear layer, of the first layer's activations. -/
theorem lin2_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) :
    rowsTimes (val_main_v49 (F := Ideal) x0 x1 x3 x4) x5 = val_main_v50 (F := Ideal) x0 x1 x3 x4 x5 := by
  funext i
  rw [val_main_v50_apply]
  generalize val_main_v49 (F := Ideal) x0 x1 x3 x4 = y
  unfold rowsTimes
  refine Finset.sum_congr rfl fun k _ => ?_
  refine congrArg₂ (fun a b : EReal => a * b) (congrArg y (funext fun a => ?_)) (congrArg x5 (funext fun a => ?_))
  · match a with
    | ⟨0, _⟩ => rfl
    | ⟨1, _⟩ => rfl
  · match a with
    | ⟨0, _⟩ => rfl
    | ⟨1, _⟩ => rfl

/-- The first bias and activation: the bias as ONE ROW (a reshape of the 128 entries) against the reference's two broadcasts. -/
theorem act1_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (h : (⟨1, ![128]⟩ : Shape).ShapeCasts ⟨2, ![1, 128]⟩) :
    biasRelu (val_main_v45 (F := Ideal) x0 x1 x3) (shapeCast ⟨2, ![1, 128]⟩ x4 h) = val_main_v49 (F := Ideal) x0 x1 x3 x4 := by
  funext i
  obtain ⟨r, q, rfl⟩ : ∃ (r : Fin 100000) (q : Fin 128), i = ix2 r q := ⟨i 0, i 1, eq_ix2 i⟩
  rw [val_main_v49_apply, val_main_v48_apply, val_main_v47_apply, val_main_v46_apply, val_main_call1_v0_apply]
  generalize val_main_v45 (F := Ideal) x0 x1 x3 = y
  unfold biasRelu
  rw [shapeCast_a_1a_apply x4 h (0 : Fin 1) _]
  refine congrArg₂ (fun a b : EReal => max a b) (congrArg (fun z : EReal => y (ix2 r q) + z) (congrArg x4 (funext fun a => ?_))) rfl
  match a with
  | ⟨0, _⟩ => rfl

/-- The second bias and activation. -/
theorem act2_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (h : (⟨1, ![128]⟩ : Shape).ShapeCasts ⟨2, ![1, 128]⟩) :
    biasRelu (val_main_v62 (F := Ideal) x0 x1 x3 x4 x5) (shapeCast ⟨2, ![1, 128]⟩ x6 h) = val_main_v66 (F := Ideal) x0 x1 x3 x4 x5 x6 := by
  funext i
  obtain ⟨r, q, rfl⟩ : ∃ (r : Fin 100000) (q : Fin 128), i = ix2 r q := ⟨i 0, i 1, eq_ix2 i⟩
  rw [val_main_v66_apply, val_main_v65_apply, val_main_v64_apply, val_main_v63_apply, val_main_call2_v0_apply]
  generalize val_main_v62 (F := Ideal) x0 x1 x3 x4 x5 = y
  unfold biasRelu
  rw [shapeCast_a_1a_apply x6 h (0 : Fin 1) _]
  refine congrArg₂ (fun a b : EReal => max a b) (congrArg (fun z : EReal => y (ix2 r q) + z) (congrArg x6 (funext fun a => ?_))) rfl
  match a with
  | ⟨0, _⟩ => rfl

/-- The classifier, of the pooled activations. -/
theorem cls_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x2, .f32⟩ : BufTy).Contents (Elt Ideal)) (x8 : (⟨Cert.ReferenceIdeal.S2, .f32⟩ : BufTy).Contents (Elt Ideal)) (h : (⟨1, ![2]⟩ : Shape).ShapeCasts ⟨2, ![1, 2]⟩) :
    pooledTimes (val_main_v78 (F := Ideal) x0 x1 x2 x3 x4 x5 x6) x7 (shapeCast ⟨2, ![1, 2]⟩ x8 h)
      = val_main_v82 (F := Ideal) x0 x1 x2 x3 x4 x5 x6 x7 x8 := by
  funext i
  obtain ⟨r, q, rfl⟩ : ∃ (r : Fin 1024) (q : Fin 2), i = ix2 r q := ⟨i 0, i 1, eq_ix2 i⟩
  rw [val_main_v82_apply, val_main_v79_apply, val_main_v81_apply, val_main_v80_apply]
  generalize val_main_v78 (F := Ideal) x0 x1 x2 x3 x4 x5 x6 = y
  unfold pooledTimes
  rw [shapeCast_a_1a_apply x8 h (0 : Fin 1) _]
  refine congrArg₂ (fun a b : EReal => a + b) (Finset.sum_congr rfl fun k _ => ?_) (congrArg x8 (funext fun a => ?_))
  · refine congrArg₂ (fun a b : EReal => a * b) (congrArg y (funext fun a => ?_)) (congrArg x7 (funext fun a => ?_))
    · match a with
      | ⟨0, _⟩ => rfl
      | ⟨1, _⟩ => rfl
    · match a with
      | ⟨0, _⟩ => rfl
      | ⟨1, _⟩ => rfl
  · match a with
    | ⟨0, _⟩ => rfl

end Cert.Bridge

end
-- ==== Proof.Chain.lean ====
/-
  THE KERNEL PROGRAM'S RESULT, as the reference's last stage of the launched arguments. The fold of the program's segments
  is walked once, boundary by boundary; at each seam the buffer the next segment reads holds the reference's stage:

    boundary 4  the first linear layer's output      = x · W1                       (region 0's 50 row blocks)
    boundary 5  the aggregated messages              = scatter-add of the scaled source rows   (host operations, shared)
    boundary 6  the first activations                = max (· + b1) 0               (region 1)
    boundary 7  the second linear layer's output     = h · W2                       (region 2)
    boundary 8  the aggregated messages again                                      (host operations, shared)
    boundary 9  the second activations               = max (· + b2) 0               (region 3)
    boundary 10 the pooled activations               = per-graph sums / counts      (host operations, shared)
    boundary 11 the result                           = pooled · Wc + bc             (region 4)

  A region's output is its whole-array function of the arrays it is entered from (the region modules), which is the
  reference's host operation (the layers module); a stretch of host operations maps the reference's stages to the
  reference's next stage (the glue module); every argument array read along the way is as launched.
-/
import proofs.«122321_j38637525795005_1_alg».proof.Proof.LinRegion1
import proofs.«122321_j38637525795005_1_alg».proof.Proof.LinRegion2
import proofs.«122321_j38637525795005_1_alg».proof.Proof.ActRegion1
import proofs.«122321_j38637525795005_1_alg».proof.Proof.ActRegion2
import proofs.«122321_j38637525795005_1_alg».proof.Proof.ClsRegion
import proofs.«122321_j38637525795005_1_alg».proof.Proof.ArgsKept
import proofs.«122321_j38637525795005_1_alg».proof.Proof.Prefix
import proofs.«122321_j38637525795005_1_alg».proof.Proof.Glue
import proofs.«122321_j38637525795005_1_alg».proof.Proof.RefLayers

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Boundary 4: the first linear layer's output. -/
theorem W4_lin1 (c : Dev nD) :
    W4 m ρ c (Proc.devRef .tc main_v33) = Cert.ReferenceIdeal.ReadP.val_main_v33 (F := Ideal) (m ((c : Thread nD τ).loc main_arg0)) (m ((c : Thread nD τ).loc main_arg3)) :=
  (W4_arr m ρ c 2).trans ((lin1_array (V3 m ρ) c).trans
    ((congrArg₂ rowsTimes (W3_main_arg0 m ρ c) (W3_main_arg3 m ρ c)).trans (Cert.Bridge.lin1_eq _ _)))

/-- Boundary 5: the first aggregation. -/
theorem W5_agg1 (c : Dev nD) :
    W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg3)) :=
  agg1_of (W4 m ρ c) _ _ _ (W4_lin1 m ρ c) ((W4_main_v3 m ρ c).trans (W3_src m ρ c))
    ((W4_main_v6 m ρ c).trans (W3_dst m ρ c)) ((W4_main_v32 m ρ c).trans (W3_nrm m ρ c))

/-- Boundary 5: the first bias as one row. -/
theorem W5_bias1 (c : Dev nD) :
    W5 m ρ c (Proc.devRef .tc main_v46) = shapeCast S1x128 (m ((c : Thread nD τ).loc main_arg4)) shapeCasts_S128_S1x128 :=
  (bias1_of (W4 m ρ c)).trans (congrArg (fun v => shapeCast S1x128 v shapeCasts_S128_S1x128) (W4_main_arg4 m ρ c))

/-- Boundary 6: the first activations. -/
theorem W6_act1 (c : Dev nD) :
    W6 m ρ c (Proc.devRef .tc main_v47) = Cert.ReferenceIdeal.ReadP.val_main_v49 (F := Ideal) (m ((c : Thread nD τ).loc main_arg0)) (m ((c : Thread nD τ).loc main_arg1)) (m ((c : Thread nD τ).loc main_arg3)) (m ((c : Thread nD τ).loc main_arg4)) :=
  (W6_arr m ρ c 2).trans ((act1_array (V5 m ρ) c).trans
    ((congrArg₂ biasRelu (W5_agg1 m ρ c) (W5_bias1 m ρ c)).trans (Cert.Bridge.act1_eq _ _ _ _ shapeCasts_S128_S1x128)))

/-- Boundary 7: the second linear layer's output. -/
theorem W7_lin2 (c : Dev nD) :
    W7 m ρ c (Proc.devRef .tc main_v48) = Cert.ReferenceIdeal.ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans ((lin2_array (V6 m ρ) c).trans
    ((congrArg₂ rowsTimes (W6_act1 m ρ c) (W6_main_arg5 m ρ c)).trans (Cert.Bridge.lin2_eq _ _ _ _ _)))

/-- Boundary 8: the second aggregation. -/
theorem W8_agg2 (c : Dev nD) :
    W8 m ρ c (Proc.devRef .tc main_v60) = Cert.ReferenceIdeal.ReadP.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  agg2_of (W7 m ρ c) _ _ _ _ _ (W7_lin2 m ρ c) ((W7_main_v3 m ρ c).trans (W3_src m ρ c))
    ((W7_main_v6 m ρ c).trans (W3_dst m ρ c)) ((W7_main_v32 m ρ c).trans (W3_nrm m ρ c))

/-- Boundary 8: the second bias as one row. -/
theorem W8_bias2 (c : Dev nD) :
    W8 m ρ c (Proc.devRef .tc main_v61) = shapeCast S1x128 (m ((c : Thread nD τ).loc main_arg6)) shapeCasts_S128_S1x128 :=
  (bias2_of (W7 m ρ c)).trans (congrArg (fun v => shapeCast S1x128 v shapeCasts_S128_S1x128) (W7_main_arg6 m ρ c))

/-- Boundary 9: the second activations. -/
theorem W9_act2 (c : Dev nD) :
    W9 m ρ c (Proc.devRef .tc main_v62) = Cert.ReferenceIdeal.ReadP.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W9_arr m ρ c 2).trans ((act2_array (V8 m ρ) c).trans
    ((congrArg₂ biasRelu (W8_agg2 m ρ c) (W8_bias2 m ρ c)).trans (Cert.Bridge.act2_eq _ _ _ _ _ _ shapeCasts_S128_S1x128)))

/-- Boundary 10: the pooled activations. -/
theorem W10_pool (c : Dev nD) :
    W10 m ρ c (Proc.devRef .tc main_v74) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  pool_of (W9 m ρ c) _ _ _ _ _ _ _ (W9_act2 m ρ c) (W9_main_arg2 m ρ c)

/-- Boundary 10: the classifier's bias as one row. -/
theorem W10_bias3 (c : Dev nD) :
    W10 m ρ c (Proc.devRef .tc main_v75) = shapeCast S1x2 (m ((c : Thread nD τ).loc main_arg8)) shapeCasts_S2_S1x2 :=
  (bias3_of (W9 m ρ c)).trans (congrArg (fun v => shapeCast S1x2 v shapeCasts_S2_S1x2) (W9_main_arg8 m ρ c))

/-- Boundary 11: THE RESULT is the reference's last stage of the launched arguments. -/
theorem W11_result (c : Dev nD) :
    W11 m ρ c (Proc.devRef .tc main_v76)
      = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W11_arr m ρ c 3).trans ((cls_array (V10 m ρ) c).trans
    ((congr (congrArg₂ pooledTimes (W10_pool m ρ c) (W10_main_arg7 m ρ c)) (W10_bias3 m ρ c)).trans
      (Cert.Bridge.cls_eq _ _ _ _ _ _ _ _ _ shapeCasts_S2_S1x2)))

end Cert.KernelIdeal.Hand

end
-- ==== Proof.lean ====
/-
  A two-layer graph convolution with mean pooling and a linear classifier, computed two ways on the same inputs (node
  features `x`, an edge list, graph ids, two 128 × 128 weights with biases, a 128 × 2 classifier weight with bias):

    edges   src, dst := the edge list with one self loop per node appended
    weights nrm[e]   := dinv[src e] · dinv[dst e],  dinv := rsqrt (max deg 1e-12) where deg > 0, else 0,  deg := in-degree
    layer   conv(h, W, b) := max (scatter-add over dst of ((h · W)[src] · nrm) + b) 0
    result  := (per-graph mean of conv(conv(x, W1, b1), W2, b2)) · Wc + bc

  The KERNEL program runs the two products `h · W`, the two `max (· + b) 0` passes and the classifier as five pipelined
  regions (the products rounded to bf16 on the way in and accumulated in f32; the row dimension cut into 50 blocks of 2000
  rows), with the gathers, scatter-adds and the pooling as host operations between them; the REFERENCE runs everything as
  host operations. At the ideal values (extended reals, exact operations, a change of float format the identity) the two
  compute the same function, stage by stage:

    * a block of rows of `h · W` is the same sum over the contracted axis as the reference's `dot_general`, and the 50
      blocks tile the rows — no sum is regrouped, so no finiteness of the inputs is used;
    * `max (a + b[0,q]) 0` with the bias reshaped to one row is the reference's broadcast-add and `relu`;
    * the host operations between the regions are the reference's, on operands already shown equal.

  The three frames: the two kernel programs' are generated; the reference's is its run with the result dropped.
  `preserves` has no conjunct (the ideal pass rewrote nothing). `algebraic`: both runs end with the result buffer at the
  reference's last stage of the launched arguments (the kernel's by the walk through its segments, the reference's by its
  run read back), and the arguments agree.
-/
import proofs.«122321_j38637525795005_1_alg».proof.Defs
import proofs.«122321_j38637525795005_1_alg».proof.Proof.Gen.Kernel
import proofs.«122321_j38637525795005_1_alg».proof.Proof.Gen.Kernel.Frame
import proofs.«122321_j38637525795005_1_alg».proof.Proof.Gen.KernelIdeal
import proofs.«122321_j38637525795005_1_alg».proof.Proof.Gen.KernelIdeal.Frame
import proofs.«122321_j38637525795005_1_alg».proof.Proof.Gen.ReferenceIdeal
import proofs.«122321_j38637525795005_1_alg».proof.Proof.Gen.Pre_finite_inputs
import proofs.«122321_j38637525795005_1_alg».proof.Proof.KernelRun
import proofs.«122321_j38637525795005_1_alg».proof.Proof.Chain
import proofs.«122321_j38637525795005_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at the reference's last stage of the (agreeing) arguments. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.W11_result m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.ReadP.val_main_v82_eq (F := Ideal) m' c).trans ?_
    obtain ⟨e0, e1, e2, e3, e4, e5, e6, e7, e8⟩ := hagree c
    show Cert.ReferenceIdeal.ReadP.val_main_v82 (F := Ideal) _ _ _ _ _ _ _ _ _ = Cert.ReferenceIdeal.ReadP.val_main_v82 (F := Ideal) _ _ _ _ _ _ _ _ _
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
